-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S768x256 : Shape := ⟨2, ![768, 256]⟩
abbrev S768 : Shape := ⟨1, ![768]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S64x2048x256 .f32) (main_arg1 : FVec F S64x2048x256 .f32) (main_arg2 : FVec F S768x256 .f32) (main_arg3 : FVec F S768x256 .f32) (main_arg4 : FVec F S768 .f32) (main_arg5 : FVec F S768 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S64x2048x256 .f32 := Host.absf main_arg1
  let main_cst_0 : FVec F S_ .f32 := constant S_ .f32 0x7F800000#32
  let main_v5 : FVec F S64x2048x256 .f32 := broadcastInDim S64x2048x256 ![] bcast_S_S64x2048x256 main_cst_0
  let main_v6 : IVec S64x2048x256 1 := cmpf .olt main_v4 main_v5
  let main_c_1 : IVec S_ 1 := constantI S_ 1 1#1
  let main_v7 : IVec S_ 1 := (fun x v => Host.reduce IntOp.andi x v reducesTo_S64x2048x256_S_d0_1_2 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_v13 main_v16
-- ==== Kernel.lean ====
abbrev S64x2048x256 : Shape := ⟨3, ![64, 2048, 256]⟩
abbrev S768x256 : Shape := ⟨2, ![768, 256]⟩
abbrev S768 : Shape := ⟨1, ![768]⟩
abbrev S131072x256 : Shape := ⟨2, ![131072, 256]⟩
abbrev S256x768 : Shape := ⟨2, ![256, 768]⟩
abbrev S1x768 : Shape := ⟨2, ![1, 768]⟩
abbrev S1024x256 : Shape := ⟨2, ![1024, 256]⟩
abbrev S1024x768 : Shape := ⟨2, ![1024, 768]⟩

abbrev nBuf : Space → Nat
  | .hbm => 14
  | .vmem => 10
  | .smem => 0
  | _ => 0

abbrev bufTy : (tb : Table) → Fin (tcTables nBuf tb) → BufTy
  | .hbm, ⟨0, _⟩ => ⟨S64x2048x256, .f32⟩
  | .hbm, ⟨1, _⟩ => ⟨S64x2048x256, .f32⟩
  | .hbm, ⟨2, _⟩ => ⟨S768x256, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S131072x256, .f32⟩
  | .hbm, ⟨7, _⟩ => ⟨S131072x256, .f32⟩
  | .hbm, ⟨8, _⟩ => ⟨S256x768, .f32⟩
  | .hbm, ⟨9, _⟩ => ⟨S256x768, .f32⟩
  | .hbm, ⟨10, _⟩ => ⟨S1x768, .f32⟩
  | .hbm, ⟨11, _⟩ => ⟨S1x768, .f32⟩
  | .hbm, ⟨12, _⟩ => ⟨S131072x256, .f32⟩
  | .hbm, ⟨13, _⟩ => ⟨S64x2048x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S1x768, .f32⟩
  | .local _ .vmem, ⟨8, _⟩ => ⟨S1024x256, .f32⟩
  | .local _ .vmem, ⟨9, _⟩ => ⟨S1024x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x2048x256_S131072x256 : S64x2048x256.ShapeCasts S131072x256
  transposes_S768x256_S256x768_1_0 : S768x256.Transposes [1, 0] S256x768
  shapeCasts_S768_S1x768 : S768.ShapeCasts S1x768
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S131072x256_S64x2048x256 : S131072x256.ShapeCasts S64x2048x256
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .f32 = 32 ∨ (Rect.block (s := S256x768) S256x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S131072x256.size a
  hwx0_6 : ∀ i : grid0.Coords, EltTy.bits .f32 = 32 ∨ (Rect.block (s := S131072x256) S1024x256.size (cc0_transform_6 i) (hinb0_6 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S768x256 : Shape := ⟨2, ![768, 256]⟩
abbrev S768 : Shape := ⟨1, ![768]⟩
abbrev S64x2048x768 : Shape := ⟨3, ![64, 2048, 768]⟩
abbrev S1x1x768 : Shape := ⟨3, ![1, 1, 768]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64x2048x256, .f32⟩
  | .hbm, ⟨2, _⟩ => ⟨S768x256, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S64x2048x768, .f32⟩
  | .hbm, ⟨7, _⟩ => ⟨S1x1x768, .f32⟩
  | .hbm, ⟨8, _⟩ => ⟨S64x2048x768, .f32⟩
  | .hbm, ⟨9, _⟩ => ⟨S64x2048x768, .f32⟩
  | .hbm, ⟨10, _⟩ => ⟨S64x2048x768, .f32⟩
  | .hbm, ⟨11, _⟩ => ⟨S1x1x768, .f32⟩
  | .hbm, ⟨12, _⟩ => ⟨S64x2048x768, .f32⟩
  | .hbm, ⟨13, _⟩ => ⟨S64x2048x768, .f32⟩
  | .hbm, ⟨14, _⟩ => ⟨S64x2048x256, .f32⟩
  | .hbm, ⟨15, _⟩ => ⟨S64x2048x256, .f32⟩
  | .hbm, ⟨16, _⟩ => ⟨S64x2048x256, .f32⟩
  | .hbm, ⟨17, _⟩ => ⟨S64x2048x256, .f32⟩
  | .hbm, ⟨18, _⟩ => ⟨S64x2048x256, .f32⟩
  | .hbm, ⟨19, _⟩ => ⟨S64x2048x256, .f32⟩
  | .hbm, ⟨20, _⟩ => ⟨S64x2048x256, .f32⟩
  | .hbm, ⟨21, _⟩ => ⟨S64x2048x256, .f32⟩
  | .hbm, ⟨22, _⟩ => ⟨S64x2048x256, .f32⟩
  | .hbm, ⟨23, _⟩ => ⟨S_, .f32⟩
  | .hbm, ⟨24, _⟩ => ⟨S64x2048x256, .f32⟩
  | .hbm, ⟨25, _⟩ => ⟨S64x2048x256, .f32⟩
  | .hbm, ⟨26, _⟩ => ⟨S_, .f32⟩
  | .hbm, ⟨27, _⟩ => ⟨S64x2048x256, .f32⟩
  | .hbm, ⟨28, _⟩ => ⟨S64x2048x256, .f32⟩
  | .hbm, ⟨29, _⟩ => ⟨S64x2048x256, .f32⟩
  | .hbm, ⟨30, _⟩ => ⟨S64x2048x256, .f32⟩
  | .hbm, ⟨31, _⟩ => ⟨S64x2048x256, .f32⟩
  | .hbm, ⟨32, _⟩ => ⟨S_, .f32⟩
  | .hbm, ⟨33, _⟩ => ⟨S64x2048x256, .f32⟩
  | .hbm, ⟨34, _⟩ => ⟨S64x2048x256, .f32⟩
  | .hbm, ⟨35, _⟩ => ⟨S_, .f32⟩
  | .hbm, ⟨36, _⟩ => ⟨S64x2048x256, .f32⟩
  | .hbm, ⟨37, _⟩ => ⟨S64x2048x256, .f32⟩
  | .hbm, ⟨38, _⟩ => ⟨S64x2048x256, .f32⟩
  | .hbm, ⟨39, _⟩ => ⟨S64x2048x256, .f32⟩
  | .hbm, ⟨40, _⟩ => ⟨S64x2048x256, .f32⟩
  | .hbm, ⟨41, _⟩ => ⟨S_, .f32⟩
  | .hbm, ⟨42, _⟩ => ⟨S64x2048x256, .f32⟩
  | .hbm, ⟨43, _⟩ => ⟨S64x2048x256, .f32⟩
  | .hbm, ⟨44, _⟩ => ⟨S64x2048x256, .f32⟩
  | .hbm, ⟨45, _⟩ => ⟨S64x2048x256, .f32⟩
  | .hbm, ⟨46, _⟩ => ⟨S64x2048x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x2048x768_0_1_2 : S1x1x768.BroadcastsInDim S64x2048x768 (![0, 1, 2] : Fin 3 → Fin S64x2048x768.rank)
  slices_S64x2048x768_S64x2048x256_0_0_0 : S64x2048x768.Slices ![0, 0, 0] S64x2048x256
  slices_S64x2048x768_S64x2048x256_0_0_256 : S64x2048x768.Slices ![0, 0, 256] S64x2048x256
  slices_S64x2048x768_S64x2048x256_0_0_512 : S64x2048x768.Slices ![0, 0, 512] S64x2048x256
  bcast_S_S64x2048x256 : S_.BroadcastsInDim S64x2048x256 (![] : Fin 0 → Fin S64x2048x256.rank)
  dot_S64x2048x256_S768x256_S64x2048x768_2_1_01_0_n_n_wf : DotDims.WF S64x2048x256 S768x256 S64x2048x768 [2] [1] [0, 1] [0] [] []

variable [Facts₀]

def dot_S64x2048x256_S768x256_S64x2048x768_2_1_01_0_n_n : DotDims S64x2048x256 S768x256 S64x2048x768 where
  lhsContracting := [2]
  rhsContracting := [1]
  lhsNonContracting := [0, 1]
  rhsNonContracting := [0]
  lhsBatch := []
  rhsBatch := []
  wf := dot_S64x2048x256_S768x256_S64x2048x768_2_1_01_0_n_n_wf

class Facts : Prop extends Facts₀ where

variable [Facts]
-- ==== Proof.GruSpec.lean ====
/-
  A gated recurrent cell applied independently at every position.

  For an input row x and a previous hidden row h (each of 256 entries), with input weights W_i and hidden
  weights W_h (768 rows of 256 entries, the rows grouped as reset, update and candidate gates of 256 each) and
  biases b_i, b_h (768 entries), the pre-activation of gate row g is
      a_i g = (sum over k of x k * W_i g k) + b_i g,      a_h g = (sum over k of h k * W_h g k) + b_h g,
  and hidden unit j of the new state is
      r = logistic (a_i j + a_h j)
      z = logistic (a_i (256 + j) + a_h (256 + j))
      n = tanh (a_i (512 + j) + r * a_h (512 + j))
      out j = (1 - z) * n + z * h j.
  This file states that function twice over the extended reals: over the arrays as a program's arguments carry them
  (positions indexed by batch and time, weights as 768-by-256 matrices, biases as vectors), and over the
  flattened, transposed arrays a tiled kernel works on (positions as rows of one matrix, weights as 256-by-768
  matrices, biases as one-row matrices), the latter for any number of rows so that it reads a tile and the whole
  array alike. It also records that the float word 0x3F800000 is the number one, and that the logistic function is
  one over one plus the exponential of the negated argument, with that word for both ones.
-/
import Idealize.ShloMosaic.PureOps.Ideal
import Idealize.ShloMosaic.Lib.ValueIdx

noncomputable section

namespace Cert.Gru

open Idealize.ShloMosaic Idealize.ShloMosaic.ValueIdx

/-- The reset-gate row of hidden unit `j`. -/
abbrev colR (j : Fin 256) : Fin 768 := ⟨j.val, by omega⟩
/-- The update-gate row of hidden unit `j`. -/
abbrev colZ (j : Fin 256) : Fin 768 := ⟨256 + j.val, by omega⟩
/-- The candidate-gate row of hidden unit `j`. -/
abbrev colN (j : Fin 256) : Fin 768 := ⟨512 + j.val, by omega⟩

/-- One hidden unit of the cell from its six gate pre-activations and the previous hidden value. -/
def cell (ir hr iz hz ic hc h : EReal) : EReal :=
  (1 - Ideal.logistic (iz + hz)) * Ideal.tanh (ic + Ideal.logistic (ir + hr) * hc) + Ideal.logistic (iz + hz) * h

/-! ## Over the arguments' own shapes -/

/-- Gate row `g`'s pre-activation at position (b, t): the row of `X` against row `g` of `W`, plus the bias. -/
def pre (X : (⟨3, ![64, 2048, 256]⟩ : Shape).Idx → EReal) (W : (⟨2, ![768, 256]⟩ : Shape).Idx → EReal)
    (bias : (⟨1, ![768]⟩ : Shape).Idx → EReal) (b : Fin 64) (t : Fin 2048) (g : Fin 768) : EReal :=
  (∑ k : Fin 256, X (ix3 b t k) * W (ix2 g k)) + bias (ix1 g)

/-- The cell at every position, entry by entry. -/
def gru (X H : (⟨3, ![64, 2048, 256]⟩ : Shape).Idx → EReal) (Wi Wh : (⟨2, ![768, 256]⟩ : Shape).Idx → EReal)
    (bi bh : (⟨1, ![768]⟩ : Shape).Idx → EReal) : (⟨3, ![64, 2048, 256]⟩ : Shape).Idx → EReal := fun i =>
  cell (pre X Wi bi (i 0) (i 1) (colR (i 2))) (pre H Wh bh (i 0) (i 1) (colR (i 2)))
    (pre X Wi bi (i 0) (i 1) (colZ (i 2))) (pre H Wh bh (i 0) (i 1) (colZ (i 2)))
    (pre X Wi bi (i 0) (i 1) (colN (i 2))) (pre H Wh bh (i 0) (i 1) (colN (i 2))) (H i)

/-! ## Over positions as rows, transposed weights and one-row biases -/

variable {R : ℕ}

/-- Gate column `g`'s pre-activation at row `p`: row `p` of `X` against column `g` of `Wt`, plus the bias row's entry. -/
def preRow (X : (⟨2, ![R, 256]⟩ : Shape).Idx → EReal) (Wt : (⟨2, ![256, 768]⟩ : Shape).Idx → EReal)
    (brow : (⟨2, ![1, 768]⟩ : Shape).Idx → EReal) (p : Fin R) (g : Fin 768) : EReal :=
  (∑ k : Fin 256, X (ix2 p k) * Wt (ix2 k g)) + brow (ix2 0 g)

/-- The cell at every row, entry by entry. -/
def gruRows (X H : (⟨2, ![R, 256]⟩ : Shape).Idx → EReal) (Wti Wth : (⟨2, ![256, 768]⟩ : Shape).Idx → EReal)
    (bi bh : (⟨2, ![1, 768]⟩ : Shape).Idx → EReal) : (⟨2, ![R, 256]⟩ : Shape).Idx → EReal := fun i =>
  cell (preRow X Wti bi (i 0) (colR (i 1))) (preRow H Wth bh (i 0) (colR (i 1)))
    (preRow X Wti bi (i 0) (colZ (i 1))) (preRow H Wth bh (i 0) (colZ (i 1)))
    (preRow X Wti bi (i 0) (colN (i 1))) (preRow H Wth bh (i 0) (colN (i 1))) (H i)

/-! ## The number one, and the logistic function spelt out -/

/-- The single-precision word 0x3F800000 is the number one. -/
theorem one_word : Ideal.ofBits .f32 0x3F800000#32 = (1 : EReal) := by
  simp [Ideal.ofBits, Ideal.ieee, -EReal.coe_mul]
  norm_num

/-- One over one plus the exponential of the negated argument, with the word for both ones, is the logistic function. -/
theorem div_one_add_exp_neg (x : EReal) :
    Ideal.div (Ideal.ofBits .f32 0x3F800000#32) (Ideal.ofBits .f32 0x3F800000#32 + Ideal.exp (-x)) = Ideal.logistic x := by
  rw [one_word]; rfl

end Cert.Gru

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KernelTile.lean ====
/-
  What the kernel's body computes on one tile.

  The body loads a tile of 1024 input rows and the matching 1024 hidden rows, the two transposed weight matrices
  (256 by 768) and the two bias rows (1 by 768). It forms each projection as a matrix product into a zero
  accumulator plus the bias row repeated down the rows, cuts each projection into three slices of 256 columns
  (reset, update, candidate), and combines them entrywise with the hidden tile. A change of float format is the
  identity on the extended reals, so read at row p and column q the projection is the pre-activation of gate column
  g at row p, the slices are the gate columns q, 256 + q and 512 + q, and the stored value is the cell on the rows of
  the tile.
-/
import proofs.«113255_j74869869904055_1_alg».proof.Proof.Gen.KernelIdeal.Skeleton
import proofs.«113255_j74869869904055_1_alg».proof.Proof.GruSpec
import proofs.«113255_j74869869904055_1_alg».proof.Proof.LibMatmulSum
import Idealize.ShloMosaic.Lib.Pipeline.Value
import Idealize.ShloMosaic.Lib.ValueIdx
import Idealize.ShloMosaic.PureOps.Ideal.Laws

noncomputable section

namespace Cert.Gru.Tile

open Cert.KernelIdeal Cert.KernelIdeal.Gen Idealize.ShloMosaic Idealize.ShloMosaic.ValueIdx Cert.Gru

/-! ## The product's dimension record, coordinate by coordinate -/

local notation "D" => dot_S1024x256_S256x768_S1024x768_1_0_0_1_n_n

theorem lhs_row (i : S1024x768.Idx) (q : (D).contr.Idx) : ((D).lhsIdx i q 0).val = (i 0).val := by
  unfold DotDims.lhsIdx
  rw [dif_neg (show ¬(0 : Fin S1024x256.rank) ∈ (D).lhsBatch by decide), dif_pos (show (0 : Fin S1024x256.rank) ∈ (D).lhsNonContracting by decide)]
  rfl
theorem lhs_contr (i : S1024x768.Idx) (q : (D).contr.Idx) : ((D).lhsIdx i q 1).val = (q ⟨0, by decide⟩).val :=
  (D).lhsIdx_val_of_single rfl i q
theorem rhs_contr (i : S1024x768.Idx) (q : (D).contr.Idx) : ((D).rhsIdx i q 0).val = (q ⟨0, by decide⟩).val :=
  (D).rhsIdx_val_of_single rfl i q
theorem rhs_col (i : S1024x768.Idx) (q : (D).contr.Idx) : ((D).rhsIdx i q 1).val = (i 1).val := by
  unfold DotDims.rhsIdx
  rw [dif_neg (show ¬(1 : Fin S256x768.rank) ∈ (D).rhsBatch by decide), dif_pos (show (1 : Fin S256x768.rank) ∈ (D).rhsNonContracting by decide)]
  rfl

/-! ## One projection -/

/-- A projection as the body spells it: the product of the (recast) tile with the (recast) weights into a zero
    accumulator, plus the bias row repeated down the rows. -/
def proj (x : Vec Ideal S1024x256 .f32) (w : Vec Ideal S256x768 .f32) (bb : Vec Ideal S1x768 .f32) : FVec Ideal S1024x768 .f32 :=
  addf (matmul (D) none (truncf .bf16 (shapeCast S1024x256 x shapeCasts_S1024x256_S1024x256) bitsLt_bf16_f32)
      (truncf .bf16 (shapeCast S256x768 w shapeCasts_S256x768_S256x768) bitsLt_bf16_f32) (constant S1024x768 .f32 0x00000000#32))
    (broadcastTo S1024x768 (shapeCast S1x768 bb shapeCasts_S1x768_S1x768) broadcasts_S1x768_S1024x768)

/-- Read at (p, g) it is the pre-activation of gate column g at row p. -/
theorem proj_apply (x : Vec Ideal S1024x256 .f32) (w : Vec Ideal S256x768 .f32) (bb : Vec Ideal S1x768 .f32) (p : Fin 1024) (g : Fin 768) :
    proj x w bb (ix2 p g) = preRow (R := 1024) x w bb p g := by
  unfold proj
  rw [shapeCast_self, shapeCast_self, shapeCast_self]
  show FloatOps.matmul (D) none _ _ (constant (F := Ideal) ⟨2, ![1024, 768]⟩ .f32 0x00000000#32) (ix2 p g) + _ = _
  rw [Cert.GraphConv.matmul_zero_sum (D) none rfl rfl lhs_row lhs_contr rhs_contr rhs_col]
  rw [broadcastTo_apply bb broadcasts_S1x768_S1024x768 (ix2 p g) (ix2 0 g) (fun a => by
    match a with
    | ⟨0, _⟩ => show 0 = if (1 : Nat) = 1 then 0 else _; rw [if_pos rfl]
    | ⟨1, _⟩ => show g.val = if (768 : Nat) = 1 then 0 else g.val; rw [if_neg (by decide)])]
  rfl

/-! ## The entrywise combination -/

/-- The body from the two projections and the hidden tile on: the six slices, the two logistic gates, the
    candidate, and the blend with the hidden tile. -/
def combine (gi gh : FVec Ideal S1024x768 .f32) (h : Vec Ideal S1024x256 .f32) : FVec Ideal S1024x256 .f32 :=
  addf
    (mulf (subf (broadcast S1024x256 (Scalar.ofBits .f32 0x3F800000#32))
        (logistic (addf (extractStridedSlice S1024x256 ![0, 256] gi slices_S1024x768_o0_256_S1024x256) (extractStridedSlice S1024x256 ![0, 256] gh slices_S1024x768_o0_256_S1024x256))))
      (tanh (addf (extractStridedSlice S1024x256 ![0, 512] gi slices_S1024x768_o0_512_S1024x256)
        (mulf (logistic (addf (extractStridedSlice S1024x256 ![0, 0] gi slices_S1024x768_o0_0_S1024x256) (extractStridedSlice S1024x256 ![0, 0] gh slices_S1024x768_o0_0_S1024x256)))
          (extractStridedSlice S1024x256 ![0, 512] gh slices_S1024x768_o0_512_S1024x256)))))
    (mulf (logistic (addf (extractStridedSlice S1024x256 ![0, 256] gi slices_S1024x768_o0_256_S1024x256) (extractStridedSlice S1024x256 ![0, 256] gh slices_S1024x768_o0_256_S1024x256)))
      (shapeCast S1024x256 h shapeCasts_S1024x256_S1024x256))

theorem slice_r (v : FVec Ideal S1024x768 .f32) (p : Fin 1024) (q : Fin 256) :
    extractStridedSlice S1024x256 ![0, 0] v slices_S1024x768_o0_0_S1024x256 (ix2 p q) = v (ix2 p (colR q)) :=
  extractStridedSlice_apply _ v _ _ _ (fun a => by
    match a with
    | ⟨0, _⟩ => show p.val = 0 + p.val; omega
    | ⟨1, _⟩ => show q.val = 0 + q.val; omega)
theorem slice_z (v : FVec Ideal S1024x768 .f32) (p : Fin 1024) (q : Fin 256) :
    extractStridedSlice S1024x256 ![0, 256] v slices_S1024x768_o0_256_S1024x256 (ix2 p q) = v (ix2 p (colZ q)) :=
  extractStridedSlice_apply _ v _ _ _ (fun a => by
    match a with
    | ⟨0, _⟩ => show p.val = 0 + p.val; omega
    | ⟨1, _⟩ => show 256 + q.val = 256 + q.val; rfl)
theorem slice_n (v : FVec Ideal S1024x768 .f32) (p : Fin 1024) (q : Fin 256) :
    extractStridedSlice S1024x256 ![0, 512] v slices_S1024x768_o0_512_S1024x256 (ix2 p q) = v (ix2 p (colN q)) :=
  extractStridedSlice_apply _ v _ _ _ (fun a => by
    match a with
    | ⟨0, _⟩ => show p.val = 0 + p.val; omega
    | ⟨1, _⟩ => show 512 + q.val = 512 + q.val; rfl)

/-- Read at (p, q) it is the cell on the six gate entries of row p and the hidden entry. -/
theorem combine_apply (gi gh : FVec Ideal S1024x768 .f32) (h : Vec Ideal S1024x256 .f32) (p : Fin 1024) (q : Fin 256) :
    combine gi gh h (ix2 p q) = cell (gi (ix2 p (colR q))) (gh (ix2 p (colR q))) (gi (ix2 p (colZ q))) (gh (ix2 p (colZ q)))
      (gi (ix2 p (colN q))) (gh (ix2 p (colN q))) (h (ix2 p q)) := by
  unfold combine
  rw [shapeCast_self]
  show (Ideal.ofBits .f32 0x3F800000#32 - Ideal.logistic (extractStridedSlice S1024x256 ![0, 256] gi _ (ix2 p q) + extractStridedSlice S1024x256 ![0, 256] gh _ (ix2 p q)))
      * Ideal.tanh (extractStridedSlice S1024x256 ![0, 512] gi _ (ix2 p q)
        + Ideal.logistic (extractStridedSlice S1024x256 ![0, 0] gi _ (ix2 p q) + extractStridedSlice S1024x256 ![0, 0] gh _ (ix2 p q))
          * extractStridedSlice S1024x256 ![0, 512] gh _ (ix2 p q))
      + Ideal.logistic (extractStridedSlice S1024x256 ![0, 256] gi _ (ix2 p q) + extractStridedSlice S1024x256 ![0, 256] gh _ (ix2 p q)) * h (ix2 p q) = _
  rw [slice_r, slice_r, slice_z, slice_z, slice_n, slice_n, one_word]
  rfl

/-! ## The stored value -/

/-- The value the body stores is the two projections combined with the hidden tile (the body's own text, regrouped). -/
theorem payload_regroup (x0 x1 : Vec Ideal S1024x256 .f32) (w2 w3 : Vec Ideal S256x768 .f32) (b4 b5 : Vec Ideal S1x768 .f32) (h : Vec Ideal S1024x256 .f32) :
    k0_pay1 (F := Ideal) x0 x1 w2 w3 b4 b5 h = combine (proj x0 w2 b4) (proj x1 w3 b5) h := rfl

/-- The value the body stores is the cell on the rows of the tile. -/
theorem payload_eq (x0 x1 : Vec Ideal S1024x256 .f32) (w2 w3 : Vec Ideal S256x768 .f32) (b4 b5 : Vec Ideal S1x768 .f32) :
    k0_pay1 (F := Ideal) x0 x1 w2 w3 b4 b5 x1 = gruRows (R := 1024) x0 x1 w2 w3 b4 b5 := by
  rw [payload_regroup]
  funext j
  obtain ⟨p, q, rfl⟩ : ∃ (p : Fin 1024) (q : Fin 256), j = ix2 p q := ⟨j 0, j 1, eq_ix2 j⟩
  rw [combine_apply, proj_apply, proj_apply, proj_apply, proj_apply, proj_apply, proj_apply]
  rfl

end Cert.Gru.Tile

end
-- ==== Proof.GruLayout.lean ====
/-
  The cell does not depend on how the arrays are laid out.

  Two facts about the cell over rows (GruSpec). First, its entry at a row depends only on that row of the
  input and hidden matrices, on the weights and on the biases: if a row of one pair of matrices is a row of another
  pair, the entries along those rows agree (this is what makes a tile's result a block of the whole result).
  Second, when the row matrices are the position arrays flattened (position (b, t) at row b * 2048 + t), the weight
  matrices are the arguments' transposed and the bias rows are the bias vectors, the entry at that row is
  the cell at position (b, t) over the arguments' own shapes.
-/
import proofs.«113255_j74869869904055_1_alg».proof.Proof.GruSpec

noncomputable section

namespace Cert.Gru

open Idealize.ShloMosaic Idealize.ShloMosaic.ValueIdx

/-- Entries of the cell over rows agree along rows that agree. -/
theorem gruRows_congr_row {R R' : ℕ}
    (x h : (⟨2, ![R, 256]⟩ : Shape).Idx → EReal) (X H : (⟨2, ![R', 256]⟩ : Shape).Idx → EReal)
    (wi wh Wi Wh : (⟨2, ![256, 768]⟩ : Shape).Idx → EReal) (bi bh Bi Bh : (⟨2, ![1, 768]⟩ : Shape).Idx → EReal)
    (p : Fin R) (p' : Fin R') (q : Fin 256)
    (hx : ∀ k : Fin 256, x (ix2 p k) = X (ix2 p' k)) (hh : ∀ k : Fin 256, h (ix2 p k) = H (ix2 p' k))
    (hwi : wi = Wi) (hwh : wh = Wh) (hbi : bi = Bi) (hbh : bh = Bh) :
    gruRows x h wi wh bi bh (ix2 p q) = gruRows X H Wi Wh Bi Bh (ix2 p' q) := by
  subst hwi hwh hbi hbh
  show cell (preRow x wi bi p (colR q)) (preRow h wh bh p (colR q)) (preRow x wi bi p (colZ q)) (preRow h wh bh p (colZ q))
      (preRow x wi bi p (colN q)) (preRow h wh bh p (colN q)) (h (ix2 p q))
    = cell (preRow X wi bi p' (colR q)) (preRow H wh bh p' (colR q)) (preRow X wi bi p' (colZ q)) (preRow H wh bh p' (colZ q))
      (preRow X wi bi p' (colN q)) (preRow H wh bh p' (colN q)) (H (ix2 p' q))
  unfold preRow
  simp only [hx, hh]

/-- Over the flattened, transposed arrays the cell at the row that holds position (b, t) is the cell at that position. -/
theorem gruRows_flat
    (X2 H2 : (⟨2, ![131072, 256]⟩ : Shape).Idx → EReal) (Wti Wth : (⟨2, ![256, 768]⟩ : Shape).Idx → EReal)
    (bri brh : (⟨2, ![1, 768]⟩ : Shape).Idx → EReal)
    (X H : (⟨3, ![64, 2048, 256]⟩ : Shape).Idx → EReal) (Wi Wh : (⟨2, ![768, 256]⟩ : Shape).Idx → EReal)
    (bi bh : (⟨1, ![768]⟩ : Shape).Idx → EReal)
    (b : Fin 64) (t : Fin 2048) (j : Fin 256) (p : Fin 131072)
    (hX : ∀ k : Fin 256, X2 (ix2 p k) = X (ix3 b t k)) (hH : ∀ k : Fin 256, H2 (ix2 p k) = H (ix3 b t k))
    (hWi : ∀ (k : Fin 256) (g : Fin 768), Wti (ix2 k g) = Wi (ix2 g k)) (hWh : ∀ (k : Fin 256) (g : Fin 768), Wth (ix2 k g) = Wh (ix2 g k))
    (hbi : ∀ g : Fin 768, bri (ix2 0 g) = bi (ix1 g)) (hbh : ∀ g : Fin 768, brh (ix2 0 g) = bh (ix1 g)) :
    gruRows X2 H2 Wti Wth bri brh (ix2 p j) = gru X H Wi Wh bi bh (ix3 b t j) := by
  show cell (preRow X2 Wti bri p (colR j)) (preRow H2 Wth brh p (colR j)) (preRow X2 Wti bri p (colZ j)) (preRow H2 Wth brh p (colZ j))
      (preRow X2 Wti bri p (colN j)) (preRow H2 Wth brh p (colN j)) (H2 (ix2 p j))
    = cell (pre X Wi bi b t (colR j)) (pre H Wh bh b t (colR j)) (pre X Wi bi b t (colZ j)) (pre H Wh bh b t (colZ j))
      (pre X Wi bi b t (colN j)) (pre H Wh bh b t (colN j)) (H (ix3 b t j))
  unfold preRow pre
  simp only [hX, hH, hWi, hWh, hbi, hbh]

end Cert.Gru

end
-- ==== Proof.KernelRows.lean ====
/-
  From tiles to the whole array.

  The grid has 128 points; point t works on rows 1024 t to 1024 t + 1023 of the flattened input and hidden
  matrices, sees the whole of both weight matrices and both bias rows, and writes rows 1024 t to 1024 t + 1023
  of the result. Since an entry of the cell over rows depends only on its own row (GruLayout), what point t
  writes back is block t of the cell over all 131072 rows, taken of the arrays as the kernel's launch finds them;
  the 128 blocks cover the result (row r lies in block r / 1024), so after the launch the result array is the
  cell over all rows.
-/
import proofs.«113255_j74869869904055_1_alg».proof.Proof.Gen.KernelIdeal.Frame
import proofs.«113255_j74869869904055_1_alg».proof.Proof.KernelTile
import proofs.«113255_j74869869904055_1_alg».proof.Proof.GruLayout
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Gru.Rows

open Cert.KernelIdeal Cert.KernelIdeal.Gen Idealize.ShloMosaic.ValueIdx Cert.Gru

variable (m : (ℓ : Loc nD τ sig) → Buf (Elt Ideal) ℓ) (ρ : Dev nD → PrngReg)

theorem hz : (![0, 0] : Fin 2 → Nat) = fun _ => 0 := funext fun a => by fin_cases a <;> rfl

/-- The cell over all 131072 rows, of the six arrays as the launch finds them. -/
def rowsResult (c : Dev nD) : S131072x256.Idx → EReal :=
  gruRows (R := 131072) (V m c main_v0) (V m c main_v1) (V m c main_v2) (V m c main_v3) (V m c main_v4) (V m c main_v5)

/-- Where each window's block sits at point t: the row tiles at block t, everything else at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the input tile at point t is row 1024 t + p of the flattened input. -/
theorem input_row (c : Dev nD) (t : Fin cfg0.N) (p : Fin 1024) (p' : Fin 131072) (hp : p'.val = t.val * 1024 + p.val) (k : Fin 256) :
    (iblk m c 0 t : S1024x256.Idx → EReal) (ix2 p k) = (V m c main_v0 : S131072x256.Idx → EReal) (ix2 p' k) := by
  obtain ⟨e00, e01, -⟩ := idx_facts t
  show (V m c main_v0 : S131072x256.Idx → EReal) (((cfg0.win 0).blk t).view.emb (ix2 p k)) = _
  refine congrArg _ (funext fun a => Fin.ext ?_)
  match a with
  | ⟨0, _⟩ => show win0_0.index t (0 : Fin 2) * 1024 + 1 * p.val = p'.val; rw [e00, hp]; omega
  | ⟨1, _⟩ => show win0_0.index t (1 : Fin 2) * 256 + 1 * k.val = k.val; rw [e01]; omega

/-- Row p of the hidden tile at point t is row 1024 t + p of the flattened hidden matrix. -/
theorem hidden_row (c : Dev nD) (t : Fin cfg0.N) (p : Fin 1024) (p' : Fin 131072) (hp : p'.val = t.val * 1024 + p.val) (k : Fin 256) :
    (iblk m c 1 t : S1024x256.Idx → EReal) (ix2 p k) = (V m c main_v1 : S131072x256.Idx → EReal) (ix2 p' k) := by
  obtain ⟨-, -, e10, e11, -⟩ := idx_facts t
  show (V m c main_v1 : S131072x256.Idx → EReal) (((cfg0.win 1).blk t).view.emb (ix2 p k)) = _
  refine congrArg _ (funext fun a => Fin.ext ?_)
  match a with
  | ⟨0, _⟩ => show win0_1.index t (0 : Fin 2) * 1024 + 1 * p.val = p'.val; rw [e10, hp]; omega
  | ⟨1, _⟩ => show win0_1.index t (1 : Fin 2) * 256 + 1 * k.val = k.val; rw [e11]; omega

/-- Every point sees the whole input weight matrix. -/
theorem input_weights (c : Dev nD) (t : Fin cfg0.N) : (iblk m c 2 t : S256x768.Idx → EReal) = (V m c main_v2 : S256x768.Idx → EReal) := by
  obtain ⟨-, -, -, -, e20, e21, -⟩ := idx_facts t
  funext y
  show (V m c main_v2 : S256x768.Idx → EReal) (((cfg0.win 2).blk t).view.emb y) = _
  refine congrArg _ (funext fun a => Fin.ext ?_)
  match a with
  | ⟨0, _⟩ => show win0_2.index t (0 : Fin 2) * 256 + 1 * (y 0).val = (y 0).val; rw [e20]; omega
  | ⟨1, _⟩ => show win0_2.index t (1 : Fin 2) * 768 + 1 * (y 1).val = (y 1).val; rw [e21]; omega

/-- Every point sees the whole hidden weight matrix. -/
theorem hidden_weights (c : Dev nD) (t : Fin cfg0.N) : (iblk m c 3 t : S256x768.Idx → EReal) = (V m c main_v3 : S256x768.Idx → EReal) := by
  obtain ⟨-, -, -, -, -, -, e30, e31, -⟩ := idx_facts t
  funext y
  show (V m c main_v3 : S256x768.Idx → EReal) (((cfg0.win 3).blk t).view.emb y) = _
  refine congrArg _ (funext fun a => Fin.ext ?_)
  match a with
  | ⟨0, _⟩ => show win0_3.index t (0 : Fin 2) * 256 + 1 * (y 0).val = (y 0).val; rw [e30]; omega
  | ⟨1, _⟩ => show win0_3.index t (1 : Fin 2) * 768 + 1 * (y 1).val = (y 1).val; rw [e31]; omega

/-- Every point sees the whole input bias row. -/
theorem input_bias (c : Dev nD) (t : Fin cfg0.N) : (iblk m c 4 t : S1x768.Idx → EReal) = (V m c main_v4 : S1x768.Idx → EReal) := by
  obtain ⟨-, -, -, -, -, -, -, -, e40, e41, -⟩ := idx_facts t
  funext y
  show (V m c main_v4 : S1x768.Idx → EReal) (((cfg0.win 4).blk t).view.emb y) = _
  refine congrArg _ (funext fun a => Fin.ext ?_)
  match a with
  | ⟨0, _⟩ => show win0_4.index t (0 : Fin 2) * 1 + 1 * (y 0).val = (y 0).val; rw [e40]; omega
  | ⟨1, _⟩ => show win0_4.index t (1 : Fin 2) * 768 + 1 * (y 1).val = (y 1).val; rw [e41]; omega

/-- Every point sees the whole hidden bias row. -/
theorem hidden_bias (c : Dev nD) (t : Fin cfg0.N) : (iblk m c 5 t : S1x768.Idx → EReal) = (V m c main_v5 : S1x768.Idx → EReal) := by
  obtain ⟨-, -, -, -, -, -, -, -, -, -, e50, e51, -⟩ := idx_facts t
  funext y
  show (V m c main_v5 : S1x768.Idx → EReal) (((cfg0.win 5).blk t).view.emb y) = _
  refine congrArg _ (funext fun a => Fin.ext ?_)
  match a with
  | ⟨0, _⟩ => show win0_5.index t (0 : Fin 2) * 1 + 1 * (y 0).val = (y 0).val; rw [e50]; omega
  | ⟨1, _⟩ => show win0_5.index t (1 : Fin 2) * 768 + 1 * (y 1).val = (y 1).val; rw [e51]; omega

/-- The cell on the tile of point t, at row p and column q, is the cell over all rows at row 1024 t + p. -/
theorem tile_entry (c : Dev nD) (t : Fin cfg0.N) (p : Fin 1024) (q : Fin 256) (i : S131072x256.Idx)
    (hi0 : (i 0).val = t.val * 1024 + p.val) (hi1 : (i 1).val = q.val) :
    gruRows (R := 1024) (iblk m c 0 t : S1024x256.Idx → EReal) (iblk m c 1 t : S1024x256.Idx → EReal) (iblk m c 2 t : S256x768.Idx → EReal)
      (iblk m c 3 t : S256x768.Idx → EReal) (iblk m c 4 t : S1x768.Idx → EReal) (iblk m c 5 t : S1x768.Idx → EReal) (ix2 p q) = rowsResult m c i := by
  have hi : i = ix2 (i 0) q := by
    exact (eq_ix2 i).trans (congrArg (ix2 (i 0)) (Fin.ext hi1))
  rw [hi]
  unfold rowsResult
  exact gruRows_congr_row _ _ _ _ _ _ _ _ _ _ _ _ p (i 0) q (fun k => input_row m c t p (i 0) hi0 k) (fun k => hidden_row m c t p (i 0) hi0 k)
    (input_weights m c t) (hidden_weights m c t) (input_bias m c t) (hidden_bias m c t)

/-- What point t writes back is block t of the cell over all rows. -/
theorem flushed_eq (c : Dev nD) (t : Fin cfg0.N) :
    (dats m 0 c).flushed 6 t = ((cfg0.win 6).blk t).view.read (Elt Ideal) (rowsResult m c) := by
  show (cfg0.win 6).cut (grid0.coords t) ((dats m 0 c).after 6 t) = _
  rw [after0_6]
  unfold out0_6
  rw [View.canon_unit_zero hz]
  simp only [View.ld_unit_zero (S := S1024x256) hz, View.ld_unit_zero (S := S256x768) hz, View.ld_unit_zero (S := S1x768) hz]
  rw [Tile.payload_eq]
  obtain ⟨-, -, -, -, -, -, -, -, -, -, -, -, e60, e61⟩ := idx_facts t
  funext j
  show gruRows (R := 1024) (iblk m c 0 t : S1024x256.Idx → EReal) (iblk m c 1 t : S1024x256.Idx → EReal) (iblk m c 2 t : S256x768.Idx → EReal)
      (iblk m c 3 t : S256x768.Idx → EReal) (iblk m c 4 t : S1x768.Idx → EReal) (iblk m c 5 t : S1x768.Idx → EReal) j
    = rowsResult m c (((cfg0.win 6).blk t).view.emb j)
  refine (congrArg _ (eq_ix2 (n0 := 1024) (n1 := 256) j)).trans (tile_entry m c t (j 0) (j 1) _ ?_ ?_)
  · show win0_6.index t (0 : Fin 2) * 1024 + 1 * (j 0).val = t.val * 1024 + (j 0).val; rw [e60]; omega
  · show win0_6.index t (1 : Fin 2) * 256 + 1 * (j 1).val = (j 1).val; rw [e61]; omega

/-- An index of the result is in point t's block iff each coordinate is in the block's range on its axis. -/
theorem mem_blk (t : Fin cfg0.N) (i : S131072x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v6).slice (win0_6.rect t)).set ↔ _
  rw [View.set_slice_whole, Rect.mem_set_unit]
  exact Iff.rfl

/-- Row r of the result lies in the block of point r / 1024. -/
theorem covered (i : S131072x256.Idx) : ∃ t : Fin cfg0.N, (cfg0.win 6).flush t = true ∧ i ∈ ((cfg0.win 6).blk t).view.set := by
  have hi0 : (i 0).val < 131072 := (i 0).isLt
  have hi1 : (i 1).val < 256 := (i 1).isLt
  have hN : cfg0.N = 128 := N_0
  refine ⟨⟨(i 0).val / 1024, by rw [hN]; omega⟩, flush0_6 _, ?_⟩
  obtain ⟨-, -, -, -, -, -, -, -, -, -, -, -, e60, e61⟩ := idx_facts ⟨(i 0).val / 1024, by rw [hN]; omega⟩
  rw [mem_blk]
  intro a
  match a with
  | ⟨0, _⟩ =>
    show win0_6.index _ (0 : Fin 2) * 1024 ≤ (i 0).val ∧ (i 0).val < win0_6.index _ (0 : Fin 2) * 1024 + 1024
    rw [e60]; show (i 0).val / 1024 * 1024 ≤ (i 0).val ∧ (i 0).val < (i 0).val / 1024 * 1024 + 1024; omega
  | ⟨1, _⟩ =>
    show win0_6.index _ (1 : Fin 2) * 256 ≤ (i 1).val ∧ (i 1).val < win0_6.index _ (1 : Fin 2) * 256 + 256
    rw [e61]; omega

/-- After the launch the result array is the cell over all rows. -/
theorem final (c : Dev nD) : (dats m 0 c).arrAt 6 cfg0.N = rowsResult m c :=
  (dats m 0 c).arrAt_eq_of_cover 6 (rowsResult m c) (fun t _ => flushed_eq m c t) covered

end Cert.Gru.Rows

end
-- ==== Proof.HostLayout.lean ====
/-
  The host's layout changes, read at an entry.

  Around the kernel's launch the program flattens the two position arrays (position (b, t) becomes row
  b * 2048 + t), transposes the two weight matrices, turns each bias vector into a one-row matrix, and afterwards
  unflattens the result. A reshape keeps the row-major position of every entry, so each of these read at an entry
  is the operand at the matching entry.
-/
import Idealize.ShloMosaic.Lib.Pipeline.Value
import Idealize.ShloMosaic.Lib.ValueIdx

noncomputable section

namespace Cert.Gru

open Idealize.ShloMosaic Idealize.ShloMosaic.ValueIdx

variable {α : Type}

/-- The flattened position array at row b * 2048 + t is the array at position (b, t). -/
theorem flatten_apply (X : (⟨3, ![64, 2048, 256]⟩ : Shape).Idx → α)
    (h : (⟨3, ![64, 2048, 256]⟩ : Shape).ShapeCasts ⟨2, ![131072, 256]⟩)
    (b : Fin 64) (t : Fin 2048) (k : Fin 256) (p : Fin 131072) (hp : p.val = b.val * 2048 + t.val) :
    shapeCast ⟨2, ![131072, 256]⟩ X h (ix2 p k) = X (ix3 b t k) :=
  shapeCast_apply X h (ix2 p k) (ix3 b t k) (by
    rw [Shape.rowMajor_val_three, Shape.rowMajor_val_two]
    show (b.val * 2048 + t.val) * 256 + k.val = p.val * 256 + k.val
    rw [hp])

/-- The unflattened row matrix at position (b, t) is the matrix at row b * 2048 + t. -/
theorem unflatten_apply (Y : (⟨2, ![131072, 256]⟩ : Shape).Idx → α)
    (h : (⟨2, ![131072, 256]⟩ : Shape).ShapeCasts ⟨3, ![64, 2048, 256]⟩)
    (b : Fin 64) (t : Fin 2048) (j : Fin 256) (p : Fin 131072) (hp : p.val = b.val * 2048 + t.val) :
    shapeCast ⟨3, ![64, 2048, 256]⟩ Y h (ix3 b t j) = Y (ix2 p j) :=
  shapeCast_apply Y h (ix3 b t j) (ix2 p j) (by
    rw [Shape.rowMajor_val_three, Shape.rowMajor_val_two]
    show p.val * 256 + j.val = (b.val * 2048 + t.val) * 256 + j.val
    rw [hp])

/-- The transposed weight matrix at (k, g) is the matrix at (g, k). -/
theorem transposed_apply (W : (⟨2, ![768, 256]⟩ : Shape).Idx → α)
    (h : (⟨2, ![768, 256]⟩ : Shape).Transposes [1, 0] ⟨2, ![256, 768]⟩) (k : Fin 256) (g : Fin 768) :
    transpose ⟨2, ![256, 768]⟩ [1, 0] W h (ix2 k g) = W (ix2 g k) :=
  transpose_apply [1, 0] W h (ix2 k g) (ix2 g k) (fun a => by
    match a with
    | ⟨0, _⟩ => rfl
    | ⟨1, _⟩ => rfl)

/-- The bias vector as a one-row matrix, at (0, g), is the vector at g. -/
theorem bias_row_apply (v : (⟨1, ![768]⟩ : Shape).Idx → α)
    (h : (⟨1, ![768]⟩ : Shape).ShapeCasts ⟨2, ![1, 768]⟩) (g : Fin 768) :
    shapeCast ⟨2, ![1, 768]⟩ v h (ix2 0 g) = v (ix1 g) :=
  shapeCast_apply v h (ix2 0 g) (ix1 g) (by
    rw [Shape.rowMajor_val_one, Shape.rowMajor_val_two]
    show g.val = 0 * 768 + g.val
    omega)

end Cert.Gru

end
-- ==== Proof.KernelRun.lean ====
/-
  The kernel program's result.

  The program flattens the two position arrays, transposes the two weight matrices, turns the two bias vectors
  into one-row matrices, launches the kernel on these six arrays, and unflattens the launch's result. The launch
  leaves the cell over all rows of the six arrays (KernelRows); a reshape and a transpose read at an entry are
  the operand at the matching entry (HostLayout); and over the flattened, transposed arrays the cell at the row
  that holds position (b, t) is the cell at that position (GruLayout). So the program's result is the cell at
  every position, of the program's own arguments.
-/
import proofs.«113255_j74869869904055_1_alg».proof.Proof.KernelRows
import proofs.«113255_j74869869904055_1_alg».proof.Proof.HostLayout
import Idealize.ShloMosaic.Lib.StableHlo.Run

noncomputable section

open Idealize.ShloMosaic Idealize.ShloMosaic.TcCoe Idealize.SL.Sem
open Idealize.ShloMosaic.Pipeline (Dat)

namespace Cert.Gru.Run

open Cert.KernelIdeal Cert.KernelIdeal.Gen Idealize.ShloMosaic.ValueIdx Idealize.ShloMosaic.StableHlo Cert.Gru Cert.Gru.Rows

variable (m : (ℓ : Loc nD τ sig) → Buf (Elt Ideal) ℓ) (ρ : Dev nD → PrngReg)

/-! ## The six arrays as the launch finds them -/

theorem flat_input (c : Dev nD) : (V m c main_v0 : S131072x256.Idx → EReal)
    = shapeCast S131072x256 (m ((c : Thread nD τ).loc main_arg0) : S64x2048x256.Idx → EReal) shapeCasts_S64x2048x256_S131072x256 := by
  show StableHlo.after hostOps0 (fun b => m (c, b)) (Proc.devRef .tc main_v0) = _
  after_results
  rfl

theorem flat_hidden (c : Dev nD) : (V m c main_v1 : S131072x256.Idx → EReal)
    = shapeCast S131072x256 (m ((c : Thread nD τ).loc main_arg1) : S64x2048x256.Idx → EReal) shapeCasts_S64x2048x256_S131072x256 := by
  show StableHlo.after hostOps0 (fun b => m (c, b)) (Proc.devRef .tc main_v1) = _
  after_results
  rfl

theorem transposed_input_weights (c : Dev nD) : (V m c main_v2 : S256x768.Idx → EReal)
    = transpose S256x768 [1, 0] (m ((c : Thread nD τ).loc main_arg2) : S768x256.Idx → EReal) transposes_S768x256_S256x768_1_0 := by
  show StableHlo.after hostOps0 (fun b => m (c, b)) (Proc.devRef .tc main_v2) = _
  after_results

theorem transposed_hidden_weights (c : Dev nD) : (V m c main_v3 : S256x768.Idx → EReal)
    = transpose S256x768 [1, 0] (m ((c : Thread nD τ).loc main_arg3) : S768x256.Idx → EReal) transposes_S768x256_S256x768_1_0 := by
  show StableHlo.after hostOps0 (fun b => m (c, b)) (Proc.devRef .tc main_v3) = _
  after_results

theorem input_bias_row (c : Dev nD) : (V m c main_v4 : S1x768.Idx → EReal)
    = shapeCast S1x768 (m ((c : Thread nD τ).loc main_arg4) : S768.Idx → EReal) shapeCasts_S768_S1x768 := by
  show StableHlo.after hostOps0 (fun b => m (c, b)) (Proc.devRef .tc main_v4) = _
  after_results
  rfl

theorem hidden_bias_row (c : Dev nD) : (V m c main_v5 : S1x768.Idx → EReal)
    = shapeCast S1x768 (m ((c : Thread nD τ).loc main_arg5) : S768.Idx → EReal) shapeCasts_S768_S1x768 := by
  show StableHlo.after hostOps0 (fun b => m (c, b)) (Proc.devRef .tc main_v5) = _
  after_results
  rfl

/-! ## The cell over all rows, unflattened, is the cell at every position -/

/-- The program's result as a function of its arguments: the cell at every position. -/
def result (c : Dev nD) : S64x2048x256.Idx → EReal :=
  gru (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem unflattened_rows (c : Dev nD) :
    shapeCast S64x2048x256 (rowsResult m c) shapeCasts_S131072x256_S64x2048x256 = result m c := by
  funext i
  obtain ⟨b, t, j, rfl⟩ : ∃ (b : Fin 64) (t : Fin 2048) (j : Fin 256), i = ix3 b t j := ⟨i 0, i 1, i 2, eq_ix3 i⟩
  have hb : b.val < 64 := b.isLt
  have ht : t.val < 2048 := t.isLt
  have hp : (⟨b.val * 2048 + t.val, by omega⟩ : Fin 131072).val = b.val * 2048 + t.val := rfl
  rw [unflatten_apply (rowsResult m c) shapeCasts_S131072x256_S64x2048x256 b t j ⟨b.val * 2048 + t.val, by omega⟩ hp]
  unfold rowsResult result
  refine gruRows_flat _ _ _ _ _ _ _ _ _ _ _ _ b t j _ (fun k => ?_) (fun k => ?_) (fun k g => ?_) (fun k g => ?_) (fun g => ?_) (fun g => ?_)
  · rw [flat_input]; exact flatten_apply _ _ b t k _ hp
  · rw [flat_hidden]; exact flatten_apply _ _ b t k _ hp
  · rw [transposed_input_weights]; exact transposed_apply _ _ k g
  · rw [transposed_hidden_weights]; exact transposed_apply _ _ k g
  · rw [input_bias_row]; exact bias_row_apply _ _ g
  · rw [hidden_bias_row]; exact bias_row_apply _ _ g

/-! ## The program's result buffer after the run -/

/-- What the line after the launch leaves in the result buffer: the launch's result array, unflattened. -/
theorem tail_result (c : Dev nD) :
    (Pipeline.afterTail₀ cfgs (dats m) 0 (V0 m) [hostOps1] c main_v7 : S64x2048x256.Idx → EReal) = result m c := by
  have hw : (Pipeline.withArrays (cfgs 0).spec c (V0 m c) (fun w => (dats m 0 c).arrAt w (cfgs 0).N) (Proc.devRef .tc main_v6) : S131072x256.Idx → EReal)
      = rowsResult m c :=
    (Pipeline.withArrays_arr spec0 launch0.win.arr_inj c _ _ 6).trans (final m c)
  unfold Pipeline.afterTail₀
  show StableHlo.after hostOps1 _ (Proc.devRef .tc main_v7) = _
  after_results
  refine Eq.trans (b := shapeCast S64x2048x256 (Pipeline.withArrays (cfgs 0).spec c (V0 m c) (fun w => (dats m 0 c).arrAt w (cfgs 0).N) (Proc.devRef .tc main_v6) : S131072x256.Idx → EReal) shapeCasts_S131072x256_S64x2048x256) rfl ?_
  rw [hw]
  exact unflattened_rows m c

/-- Every weakly fair execution of the kernel program terminates with the result buffer at the cell at every
    position and the six arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Gru.Run

end
-- ==== Proof.RefIsGru.lean ====
/-
  The reference computes the cell at every position.

  The reference program forms the two projections with one contraction each (positions by gate rows), adds the
  biases, cuts each projection into its three gate slices of 256 columns, and combines them entrywise; its
  logistic function is spelt as one over one plus the exponential of the negated argument. Read entry by entry,
  each projection at (b, t, g) is the pre-activation of gate row g at position (b, t), the three slices are the gate
  rows j, 256 + j and 512 + j of hidden unit j, and the entrywise combination is the cell.
-/
import proofs.«113255_j74869869904055_1_alg».proof.Proof.Gen.ReferenceIdeal.Read
import proofs.«113255_j74869869904055_1_alg».proof.Proof.GruSpec

noncomputable section

namespace Cert.Gru.Ref

open Cert.ReferenceIdeal Cert.ReferenceIdeal.Read Idealize.ShloMosaic Idealize.ShloMosaic.ValueIdx Cert.Gru

variable (x0 x1 : (⟨S64x2048x256, .f32⟩ : BufTy).Contents (Elt Ideal)) (x2 x3 : (⟨S768x256, .f32⟩ : BufTy).Contents (Elt Ideal))
  (x4 x5 : (⟨S768, .f32⟩ : BufTy).Contents (Elt Ideal))

/-! ## The contractions' operand indices and the bias's, by coordinates -/

theorem lidx0_eq (i : S64x2048x768.Idx) (k : Fin 256) : lidx_main_v0 i k = ix3 (i 0) (i 1) k :=
  funext fun a => Fin.ext (by match a with | ⟨0, _⟩ => rfl | ⟨1, _⟩ => rfl | ⟨2, _⟩ => rfl)
theorem ridx0_eq (i : S64x2048x768.Idx) (k : Fin 256) : ridx_main_v0 i k = ix2 (i 2) k :=
  funext fun a => Fin.ext (by match a with | ⟨0, _⟩ => rfl | ⟨1, _⟩ => rfl)
theorem lidx4_eq (i : S64x2048x768.Idx) (k : Fin 256) : lidx_main_v4 i k = ix3 (i 0) (i 1) k :=
  funext fun a => Fin.ext (by match a with | ⟨0, _⟩ => rfl | ⟨1, _⟩ => rfl | ⟨2, _⟩ => rfl)
theorem ridx4_eq (i : S64x2048x768.Idx) (k : Fin 256) : ridx_main_v4 i k = ix2 (i 2) k :=
  funext fun a => Fin.ext (by match a with | ⟨0, _⟩ => rfl | ⟨1, _⟩ => rfl)
theorem bidx1_eq (i : S64x2048x768.Idx) : idx_main_v1 (idx_main_v2 i) = ix1 (i 2) :=
  funext fun a => Fin.ext (by match a with | ⟨0, _⟩ => rfl)
theorem bidx5_eq (i : S64x2048x768.Idx) : idx_main_v5 (idx_main_v6 i) = ix1 (i 2) :=
  funext fun a => Fin.ext (by match a with | ⟨0, _⟩ => rfl)

/-! ## The two projections, entry by entry -/

/-- The input projection with its bias, at (b, t, g): gate row g's pre-activation from the input row. -/
theorem input_proj (i : S64x2048x768.Idx) :
    val_main_v3 (F := Ideal) x0 x2 x4 i = pre x0 x2 x4 (i 0) (i 1) (i 2) := by
  rw [val_main_v3_apply, val_main_v0_apply, val_main_v2_apply, val_main_v1_apply]
  simp only [lidx0_eq, ridx0_eq, bidx1_eq]
  rfl

/-- The hidden projection with its bias, at (b, t, g): gate row g's pre-activation from the hidden row. -/
theorem hidden_proj (i : S64x2048x768.Idx) :
    val_main_v7 (F := Ideal) x1 x3 x5 i = pre x1 x3 x5 (i 0) (i 1) (i 2) := by
  rw [val_main_v7_apply, val_main_v4_apply, val_main_v6_apply, val_main_v5_apply]
  simp only [lidx4_eq, ridx4_eq, bidx5_eq]
  rfl

/-! ## The six gate slices -/

theorem input_r (i : S64x2048x256.Idx) : val_main_v8 (F := Ideal) x0 x2 x4 i = pre x0 x2 x4 (i 0) (i 1) (colR (i 2)) := by
  rw [val_main_v8_apply, input_proj]; rfl
theorem input_z (i : S64x2048x256.Idx) : val_main_v9 (F := Ideal) x0 x2 x4 i = pre x0 x2 x4 (i 0) (i 1) (colZ (i 2)) := by
  rw [val_main_v9_apply, input_proj]; rfl
theorem input_n (i : S64x2048x256.Idx) : val_main_v10 (F := Ideal) x0 x2 x4 i = pre x0 x2 x4 (i 0) (i 1) (colN (i 2)) := by
  rw [val_main_v10_apply, input_proj]; rfl
theorem hidden_r (i : S64x2048x256.Idx) : val_main_v11 (F := Ideal) x1 x3 x5 i = pre x1 x3 x5 (i 0) (i 1) (colR (i 2)) := by
  rw [val_main_v11_apply, hidden_proj]; rfl
theorem hidden_z (i : S64x2048x256.Idx) : val_main_v12 (F := Ideal) x1 x3 x5 i = pre x1 x3 x5 (i 0) (i 1) (colZ (i 2)) := by
  rw [val_main_v12_apply, hidden_proj]; rfl
theorem hidden_n (i : S64x2048x256.Idx) : val_main_v13 (F := Ideal) x1 x3 x5 i = pre x1 x3 x5 (i 0) (i 1) (colN (i 2)) := by
  rw [val_main_v13_apply, hidden_proj]; rfl

/-- One over one plus the exponential of the negated argument is the logistic function. -/
theorem div_one (x : EReal) : Ideal.div 1 (1 + Ideal.exp (-x)) = Ideal.logistic x := rfl

/-! ## The result -/

/-- The reference's result is the cell at every position. -/
theorem result_eq : val_main_v35 (F := Ideal) x0 x1 x2 x3 x4 x5 = gru x0 x1 x2 x3 x4 x5 := by
  funext i
  simp only [val_main_v35_apply, val_main_v34_apply, val_main_v33_apply, val_main_v32_apply, val_main_v31_apply,
    val_main_cst_3_apply, val_main_v30_apply, val_main_v29_apply, val_main_v28_apply, val_main_v27_apply,
    val_main_v26_apply, val_main_cst_2_apply, val_main_v25_apply, val_main_v24_apply, val_main_cst_1_apply,
    val_main_v23_apply, val_main_v22_apply, val_main_v21_apply, val_main_v20_apply, val_main_v19_apply,
    val_main_cst_0_apply, val_main_v18_apply, val_main_v17_apply, val_main_cst_apply, val_main_v16_apply,
    val_main_v15_apply, val_main_v14_apply, input_r, input_z, input_n, hidden_r, hidden_z, hidden_n,
    Ideal.addf_def, Ideal.subf_def, Ideal.mulf_def, Ideal.hostDivf_def, Ideal.hostUnary_exp_def,
    Ideal.hostUnary_tanh_def, Ideal.hostNegf_def, Ideal.negf_def, Ideal.ofBits_def, one_word, div_one]
  rfl

end Cert.Gru.Ref

end
-- ==== Proof.lean ====
/-
  A gated recurrent cell applied independently at every position: a tiled kernel against its array-level reference.

  Both programs take an input array and a hidden array of 64 by 2048 positions with 256 entries each, two weight
  matrices of 768 rows by 256 columns (the rows grouped as reset, update and candidate gates), and two bias vectors
  of 768 entries. For a position with input row x and hidden row h, gate row g has pre-activations
      a_i g = (sum over k of x k * W_i g k) + b_i g,      a_h g = (sum over k of h k * W_h g k) + b_h g,
  and hidden unit j of the result is
      (1 - z) * n + z * h j,   z = logistic (a_i (256 + j) + a_h (256 + j)),
      n = tanh (a_i (512 + j) + r * a_h (512 + j)),   r = logistic (a_i j + a_h j).

  The reference computes exactly this with two contractions over all positions, three slices of each, and the
  logistic function spelt as one over one plus the exponential of the negated argument (RefIsGru).
  The kernel program flattens the positions into 131072 rows, transposes the weights, and runs 128 tiles of 1024
  rows; on a tile the body forms each projection as a matrix product into a zero accumulator (its change of float
  format is the identity on the extended reals) plus the bias row, and combines the slices entrywise (KernelTile);
  an entry depends only on its own row, so the tiles are blocks of the cell over all rows and cover the result
  (KernelRows); the flattening, the transposes and the final unflattening only move entries (HostLayout,
  KernelRun). Both sides contract over k in the same order and use the same functions of the same sums, so no
  algebraic law beyond these re-indexings is needed and the finiteness of the inputs is never used.
  The kernel's idealization rewrote no operation, so there is nothing to preserve.
-/
import proofs.«113255_j74869869904055_1_alg».proof.Defs
import proofs.«113255_j74869869904055_1_alg».proof.Proof.Gen.Kernel
import proofs.«113255_j74869869904055_1_alg».proof.Proof.Gen.Kernel.Skeleton
import proofs.«113255_j74869869904055_1_alg».proof.Proof.Gen.Kernel.Launch
import proofs.«113255_j74869869904055_1_alg».proof.Proof.Gen.Kernel.Points
import proofs.«113255_j74869869904055_1_alg».proof.Proof.Gen.Kernel.Frame
import proofs.«113255_j74869869904055_1_alg».proof.Proof.Gen.KernelIdeal
import proofs.«113255_j74869869904055_1_alg».proof.Proof.Gen.KernelIdeal.Skeleton
import proofs.«113255_j74869869904055_1_alg».proof.Proof.Gen.KernelIdeal.Launch
import proofs.«113255_j74869869904055_1_alg».proof.Proof.Gen.KernelIdeal.Points
import proofs.«113255_j74869869904055_1_alg».proof.Proof.Gen.KernelIdeal.Frame
import proofs.«113255_j74869869904055_1_alg».proof.Proof.Gen.ReferenceIdeal
import proofs.«113255_j74869869904055_1_alg».proof.Proof.Gen.ReferenceIdeal.Run
import proofs.«113255_j74869869904055_1_alg».proof.Proof.Gen.ReferenceIdeal.Read
import proofs.«113255_j74869869904055_1_alg».proof.Proof.Gen.Pre_finite_inputs
import proofs.«113255_j74869869904055_1_alg».proof.Proof.KernelRun
import proofs.«113255_j74869869904055_1_alg».proof.Proof.RefIsGru
import Idealize.ShloMosaic.Adequacy
import Idealize.ShloMosaic.Init

noncomputable section

namespace Cert.Proof

open Idealize.ShloMosaic Idealize.SL.Sem

/-- The kernel program as printed runs to the end and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel program and the reference both end with the cell at every position. -/
theorem algebraic : Cert.algebraic_KernelIdeal_ReferenceIdeal := by
  intro m ρ m' ρ' _ hagree
  refine ⟨fun c => Cert.Gru.Run.result m c, Cert.Gru.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v35_eq, Cert.Gru.Ref.result_eq, a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
